-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S640000x128 : Shape := ⟨2, ![640000, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S128x128 : Shape := ⟨2, ![128, 128]⟩
abbrev S128 : Shape := ⟨1, ![128]⟩
abbrev S128x1 : Shape := ⟨2, ![128, 1]⟩
abbrev S101x1 : Shape := ⟨2, ![101, 1]⟩
abbrev S10201x1 : Shape := ⟨2, ![10201, 1]⟩
abbrev S50000 : Shape := ⟨1, ![50000]⟩
abbrev S640000 : Shape := ⟨1, ![640000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S101x1 : S_.BroadcastsInDim S101x1 (![] : Fin 0 → Fin S101x1.rank)
  reducesTo_S101x1_S_d0_1 : S101x1.ReducesTo [0, 1] S_
  bcast_S_S10201x1 : S_.BroadcastsInDim S10201x1 (![] : Fin 0 → Fin S10201x1.rank)
  reducesTo_S10201x1_S_d0_1 : S10201x1.ReducesTo [0, 1] S_

variable [Facts]

def fn_part3 {F : FTy → Type} [FloatOps F] (main_arg11 : FVec F S101x1 .f32) (main_arg12 : FVec F S10201x1 .f32) (main_v48 : IVec S_ 1) (main_v49 : FVec F S101x1 .f32) (main_v50 : FVec F S101x1 .f32) : IVec S_ 1 :=
  let main_v51 : IVec S101x1 1 := cmpf .olt main_v49 main_v50
  let main_c_19 : IVec S_ 1 := constantI S_ 1 1#1
  let main_v52 : IVec S_ 1 := (fun x v => Host.reduce IntOp.andi x v reducesTo_S101x1_S_d0_1 h_S_) main_v51 main_c_19
  let main_v53 : IVec S_ 1 := andi main_v48 main_v52
  let main_v54 : FVec F S101x1 .f32 := Host.absf main_arg11
  let main_cst_20 : FVec F S_ .f32 := constant S_ .f32 0x7F800000#32
  let main_v55 : FVec F S101x1 .f32 := broadcastInDim S101x1 ![] bcast_S_S101x1 main_cst_20
  let main_v56 : IVec S101x1 1 := cmpf .olt main_v54 main_v55
  let main_c_21 : IVec S_ 1 := constantI S_ 1 1#1
  let main_v57 : IVec S_ 1 := (fun x v => Host.reduce IntOp.andi x v reducesTo_S101x1_S_d0_1 h_S_) main_v56 main_c_21
  let main_v58 : IVec S_ 1 := andi main_v53 main_v57
  let main_v59 : FVec F S10201x1 .f32 := Host.absf main_arg12
  let main_cst_22 : FVec F S_ .f32 := constant S_ .f32 0x7F800000#32
  let main_v60 : FVec F S10201x1 .f32 := broadcastInDim S10201x1 ![] bcast_S_S10201x1 main_cst_22
  let main_v61 : IVec S10201x1 1 := cmpf .olt main_v59 main_v60
  let main_c_23 : IVec S_ 1 := constantI S_ 1 1#1
  let main_v62 : IVec S_ 1 := (fun x v => Host.reduce IntOp.andi x v reducesTo_S10201x1_S_d0_1 h_S_) main_v61 main_c_23
  let main_v63 : IVec S_ 1 := andi main_v58 main_v62
  main_v63

def fn_part2 {F : FTy → Type} [FloatOps F] (main_arg7 : FVec F S128 .f32) (main_arg8 : FVec F S128x1 .f32) (main_arg9 : FVec F S1 .f32) (main_arg10 : FVec F S101x1 .f32) (main_arg11 : FVec F S101x1 .f32) (main_arg12 : FVec F S10201x1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S101x1 .f32 := Host.absf main_arg10
  let main_cst_18 : FVec F S_ .f32 := constant S_ .f32 0x7F800000#32
  let main_v50 : FVec F S101x1 .f32 := broadcastInDim S101x1 ![] bcast_S_S101x1 main_cst_18
  fn_part3 (F := F) main_arg11 main_arg12 main_v48 main_v49 main_v50

def fn_part1 {F : FTy → Type} [FloatOps F] (main_arg4 : FVec F S256x1 .f32) (main_arg5 : FVec F S1 .f32) (main_arg6 : FVec F S128x128 .f32) (main_arg7 : FVec F S128 .f32) (main_arg8 : FVec F S128x1 .f32) (main_arg9 : FVec F S1 .f32) (main_arg10 : FVec F S101x1 .f32) (main_arg11 : FVec F S101x1 .f32) (main_arg12 : FVec F S10201x1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x256 .f32) (main_arg1 : FVec F S640000x128 .f32) (main_arg2 : FVec F S256x256 .f32) (main_arg3 : FVec F S256 .f32) (main_arg4 : FVec F S256x1 .f32) (main_arg5 : FVec F S1 .f32) (main_arg6 : FVec F S128x128 .f32) (main_arg7 : FVec F S128 .f32) (main_arg8 : FVec F S128x1 .f32) (main_arg9 : FVec F S1 .f32) (main_arg10 : FVec F S101x1 .f32) (main_arg11 : FVec F S101x1 .f32) (main_arg12 : FVec F S10201x1 .f32) (main_arg13 : IVec S50000 32) (main_arg14 : IVec S640000 32) (main_arg15 : IVec S640000 32) (main_arg16 : IVec S50000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_v13 main_v16
-- ==== Kernel.lean ====
abbrev S50000x256 : Shape := ⟨2, ![50000, 256]⟩
abbrev S640000x128 : Shape := ⟨2, ![640000, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S128x128 : Shape := ⟨2, ![128, 128]⟩
abbrev S128 : Shape := ⟨1, ![128]⟩
abbrev S128x1 : Shape := ⟨2, ![128, 1]⟩
abbrev S101x1 : Shape := ⟨2, ![101, 1]⟩
abbrev S10201x1 : Shape := ⟨2, ![10201, 1]⟩
abbrev S50000 : Shape := ⟨1, ![50000]⟩
abbrev S640000 : Shape := ⟨1, ![640000]⟩
abbrev S50000x1 : Shape := ⟨2, ![50000, 1]⟩
abbrev S2000x256 : Shape := ⟨2, ![2000, 256]⟩
abbrev S2000x1 : Shape := ⟨2, ![2000, 1]⟩
abbrev S1x256 : Shape := ⟨2, ![1, 256]⟩
abbrev S1x1 : Shape := ⟨2, ![1, 1]⟩
abbrev S640000x1 : Shape := ⟨2, ![640000, 1]⟩
abbrev S8000x128 : Shape := ⟨2, ![8000, 128]⟩
abbrev S8000x1 : Shape := ⟨2, ![8000, 1]⟩
abbrev S1x128 : Shape := ⟨2, ![1, 128]⟩
abbrev S_ : Shape := ⟨0, ![]⟩
abbrev S32x1 : Shape := ⟨2, ![32, 1]⟩
abbrev S32 : Shape := ⟨1, ![32]⟩

abbrev nBuf : Space → Nat
  | .hbm => 81
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S640000x128, .f32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S101x1, .f32⟩
  | .hbm, ⟨11, _⟩ => ⟨S101x1, .f32⟩
  | .hbm, ⟨12, _⟩ => ⟨S10201x1, .f32⟩
  | .hbm, ⟨13, _⟩ => ⟨S50000, .i32⟩
  | .hbm, ⟨14, _⟩ => ⟨S640000, .i32⟩
  | .hbm, ⟨15, _⟩ => ⟨S640000, .i32⟩
  | .hbm, ⟨16, _⟩ => ⟨S50000, .i32⟩
  | .hbm, ⟨17, _⟩ => ⟨S50000x1, .f32⟩
  | .hbm, ⟨18, _⟩ => ⟨S640000x1, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000, .i32⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000, .i32⟩
  | .hbm, ⟨40, _⟩ => ⟨S640000, .i32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x1, .f32⟩
  | .hbm, ⟨50, _⟩ => ⟨S640000x1, .f32⟩
  | .hbm, ⟨51, _⟩ => ⟨S_, .f32⟩
  | .hbm, ⟨52, _⟩ => ⟨S50000x1, .f32⟩
  | .hbm, ⟨53, _⟩ => ⟨S640000x1, .i32⟩
  | .hbm, ⟨54, _⟩ => ⟨S50000x1, .f32⟩
  | .hbm, ⟨55, _⟩ => ⟨S50000x1, .f32⟩
  | .hbm, ⟨56, _⟩ => ⟨S_, .i32⟩
  | .hbm, ⟨57, _⟩ => ⟨S50000, .i32⟩
  | .hbm, ⟨58, _⟩ => ⟨S50000, .i1⟩
  | .hbm, ⟨59, _⟩ => ⟨S_, .i32⟩
  | .hbm, ⟨60, _⟩ => ⟨S50000, .i32⟩
  | .hbm, ⟨61, _⟩ => ⟨S50000, .i32⟩
  | .hbm, ⟨62, _⟩ => ⟨S50000, .i32⟩
  | .hbm, ⟨63, _⟩ => ⟨S50000x1, .i32⟩
  | .hbm, ⟨64, _⟩ => ⟨S50000x1, .f32⟩
  | .hbm, ⟨65, _⟩ => ⟨S50000x1, .f32⟩
  | .hbm, ⟨66, _⟩ => ⟨S_, .i32⟩
  | .hbm, ⟨67, _⟩ => ⟨S50000, .i32⟩
  | .hbm, ⟨68, _⟩ => ⟨S50000, .i1⟩
  | .hbm, ⟨69, _⟩ => ⟨S_, .i32⟩
  | .hbm, ⟨70, _⟩ => ⟨S50000, .i32⟩
  | .hbm, ⟨71, _⟩ => ⟨S50000, .i32⟩
  | .hbm, ⟨72, _⟩ => ⟨S50000, .i32⟩
  | .hbm, ⟨73, _⟩ => ⟨S50000x1, .i32⟩
  | .hbm, ⟨74, _⟩ => ⟨S50000x1, .f32⟩
  | .hbm, ⟨75, _⟩ => ⟨S50000x1, .f32⟩
  | .hbm, ⟨76, _⟩ => ⟨S_, .f32⟩
  | .hbm, ⟨77, _⟩ => ⟨S32x1, .f32⟩
  | .hbm, ⟨78, _⟩ => ⟨S50000x1, .i32⟩
  | .hbm, ⟨79, _⟩ => ⟨S32x1, .f32⟩
  | .hbm, ⟨80, _⟩ => ⟨S32, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256, .f32⟩
  | .local _ .vmem, ⟨4, _⟩ => ⟨S256x1, .f32⟩
  | .local _ .vmem, ⟨5, _⟩ => ⟨S1, .f32⟩
  | .local _ .vmem, ⟨6, _⟩ => ⟨S2000x1, .f32⟩
  | .local _ .vmem, ⟨7, _⟩ => ⟨S2000x1, .f32⟩
  | .local _ .vmem, ⟨8, _⟩ => ⟨S8000x128, .f32⟩
  | .local _ .vmem, ⟨9, _⟩ => ⟨S8000x128, .f32⟩
  | .local _ .vmem, ⟨10, _⟩ => ⟨S128x128, .f32⟩
  | .local _ .vmem, ⟨11, _⟩ => ⟨S128, .f32⟩
  | .local _ .vmem, ⟨12, _⟩ => ⟨S128x1, .f32⟩
  | .local _ .vmem, ⟨13, _⟩ => ⟨S1, .f32⟩
  | .local _ .vmem, ⟨14, _⟩ => ⟨S8000x1, .f32⟩
  | .local _ .vmem, ⟨15, _⟩ => ⟨S8000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_v11 : Ref sig .tc := ⟨.hbm, 32, rfl⟩
abbrev main_v12 : Ref sig .tc := ⟨.hbm, 33, rfl⟩
abbrev main_c_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_c_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x1_S128x1_0_0 : ∀ a, (![0, 0] : Fin 2 → Nat) a + S128x1.size a ≤ S128x1.size a
  h_S128x1 : 0 < S128x1.numel
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  bcast_S_S640000 : S_.BroadcastsInDim S640000 (![] : Fin 0 → Fin S640000.rank)
  bcast_S640000_S640000x1_0 : S640000.BroadcastsInDim S640000x1 (![0] : Fin 1 → Fin S640000x1.rank)
  bcast_S_S50000x1 : S_.BroadcastsInDim S50000x1 (![] : Fin 0 → Fin S50000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S32x1 : S_.BroadcastsInDim S32x1 (![] : Fin 0 → Fin S32x1.rank)
  shapeCasts_S32x1_S32 : S32x1.ShapeCasts S32
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  gather_S50000_S640000x1_S640000_n_0_n_n_0_1_1_wf : GatherDims.WF S50000 S640000x1 S640000 [] [0] [] [0] [] 1 ![1]
  gather_S10201x1_S640000x1_S640000x1_1_0_n_n_0_1_11_wf : GatherDims.WF S10201x1 S640000x1 S640000x1 [1] [0] [] [0] [] 1 ![1, 1]
  scatter_S50000x1_S640000x1_S640000x1_1_0_0_1_wf : ScatterDims.WF S50000x1 S640000x1 S640000x1 [1] [0] [0] 1
  gather_S101x1_S50000x1_S50000x1_1_0_n_n_0_1_11_wf : GatherDims.WF S101x1 S50000x1 S50000x1 [1] [0] [] [0] [] 1 ![1, 1]
  scatter_S32x1_S50000x1_S50000x1_1_0_0_1_wf : ScatterDims.WF S32x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S50000x1.size a
  hwx0_5 : ∀ i : grid0.Coords, EltTy.bits .f32 = 32 ∨ (Rect.block (s := S50000x1) S2000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S640000x128.size a
  hwx1_0 : ∀ i : grid1.Coords, EltTy.bits .f32 = 32 ∨ (Rect.block (s := S640000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x1.size a ≤ S640000x1.size a
  hwx1_5 : ∀ i : grid1.Coords, EltTy.bits .f32 = 32 ∨ (Rect.block (s := S640000x1) S8000x1.size (cc1_transform_5 i) (hinb1_5 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S10201x1_S640000x1_S640000x1_1_0_n_n_0_1_11 : GatherDims S10201x1 S640000x1 S640000x1 where
  offsetDims := [1]
  collapsedSliceDims := [0]
  operandBatchingDims := []
  startIndicesBatchingDims := []
  startIndexMap := [0]
  indexVectorDim := 1
  sliceSizes := ![1, 1]
  wf := gather_S10201x1_S640000x1_S640000x1_1_0_n_n_0_1_11_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def gather_S101x1_S50000x1_S50000x1_1_0_n_n_0_1_11 : GatherDims S101x1 S50000x1 S50000x1 where
  offsetDims := [1]
  collapsedSliceDims := [0]
  operandBatchingDims := []
  startIndicesBatchingDims := []
  startIndexMap := [0]
  indexVectorDim := 1
  sliceSizes := ![1, 1]
  wf := gather_S101x1_S50000x1_S50000x1_1_0_n_n_0_1_11_wf
def scatter_S32x1_S50000x1_S50000x1_1_0_0_1 : ScatterDims S32x1 S50000x1 S50000x1 where
  updateWindowDims := [1]
  insertedWindowDims := [0]
  scatterDimsToOperandDims := [0]
  indexVectorDim := 1
  wf := scatter_S32x1_S50000x1_S50000x1_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S8000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S640000x128 : Shape := ⟨2, ![640000, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S128x128 : Shape := ⟨2, ![128, 128]⟩
abbrev S128 : Shape := ⟨1, ![128]⟩
abbrev S128x1 : Shape := ⟨2, ![128, 1]⟩
abbrev S101x1 : Shape := ⟨2, ![101, 1]⟩
abbrev S10201x1 : Shape := ⟨2, ![10201, 1]⟩
abbrev S50000 : Shape := ⟨1, ![50000]⟩
abbrev S640000 : Shape := ⟨1, ![640000]⟩
abbrev S1x256 : Shape := ⟨2, ![1, 256]⟩
abbrev S_ : Shape := ⟨0, ![]⟩
abbrev S50000x1 : Shape := ⟨2, ![50000, 1]⟩
abbrev S1x1 : Shape := ⟨2, ![1, 1]⟩
abbrev S1x128 : Shape := ⟨2, ![1, 128]⟩
abbrev S640000x1 : Shape := ⟨2, ![640000, 1]⟩
abbrev S32x1 : Shape := ⟨2, ![32, 1]⟩
abbrev S32 : Shape := ⟨1, ![32]⟩

abbrev nBuf : Space → Nat
  | .hbm => 113
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S640000x128, .f32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S101x1, .f32⟩
  | .hbm, ⟨11, _⟩ => ⟨S101x1, .f32⟩
  | .hbm, ⟨12, _⟩ => ⟨S10201x1, .f32⟩
  | .hbm, ⟨13, _⟩ => ⟨S50000, .i32⟩
  | .hbm, ⟨14, _⟩ => ⟨S640000, .i32⟩
  | .hbm, ⟨15, _⟩ => ⟨S640000, .i32⟩
  | .hbm, ⟨16, _⟩ => ⟨S50000, .i32⟩
  | .hbm, ⟨17, _⟩ => ⟨S50000x256, .f32⟩
  | .hbm, ⟨18, _⟩ => ⟨S1x256, .f32⟩
  | .hbm, ⟨19, _⟩ => ⟨S50000x256, .f32⟩
  | .hbm, ⟨20, _⟩ => ⟨S50000x256, .f32⟩
  | .hbm, ⟨21, _⟩ => ⟨S50000x256, .f32⟩
  | .hbm, ⟨22, _⟩ => ⟨S50000x256, .f32⟩
  | .hbm, ⟨23, _⟩ => ⟨S_, .f32⟩
  | .hbm, ⟨24, _⟩ => ⟨S50000x256, .f32⟩
  | .hbm, ⟨25, _⟩ => ⟨S50000x256, .f32⟩
  | .hbm, ⟨26, _⟩ => ⟨S_, .f32⟩
  | .hbm, ⟨27, _⟩ => ⟨S50000x256, .f32⟩
  | .hbm, ⟨28, _⟩ => ⟨S50000x256, .f32⟩
  | .hbm, ⟨29, _⟩ => ⟨S50000x256, .f32⟩
  | .hbm, ⟨30, _⟩ => ⟨S50000x1, .f32⟩
  | .hbm, ⟨31, _⟩ => ⟨S1x1, .f32⟩
  | .hbm, ⟨32, _⟩ => ⟨S50000x1, .f32⟩
  | .hbm, ⟨33, _⟩ => ⟨S50000x1, .f32⟩
  | .hbm, ⟨34, _⟩ => ⟨S640000x128, .f32⟩
  | .hbm, ⟨35, _⟩ => ⟨S1x128, .f32⟩
  | .hbm, ⟨36, _⟩ => ⟨S640000x128, .f32⟩
  | .hbm, ⟨37, _⟩ => ⟨S640000x128, .f32⟩
  | .hbm, ⟨38, _⟩ => ⟨S640000x128, .f32⟩
  | .hbm, ⟨39, _⟩ => ⟨S640000x128, .f32⟩
  | .hbm, ⟨40, _⟩ => ⟨S_, .f32⟩
  | .hbm, ⟨41, _⟩ => ⟨S640000x128, .f32⟩
  | .hbm, ⟨42, _⟩ => ⟨S640000x128, .f32⟩
  | .hbm, ⟨43, _⟩ => ⟨S_, .f32⟩
  | .hbm, ⟨44, _⟩ => ⟨S640000x128, .f32⟩
  | .hbm, ⟨45, _⟩ => ⟨S640000x128, .f32⟩
  | .hbm, ⟨46, _⟩ => ⟨S640000x128, .f32⟩
  | .hbm, ⟨47, _⟩ => ⟨S640000x1, .f32⟩
  | .hbm, ⟨48, _⟩ => ⟨S1x1, .f32⟩
  | .hbm, ⟨49, _⟩ => ⟨S640000x1, .f32⟩
  | .hbm, ⟨50, _⟩ => ⟨S640000x1, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000, .i32⟩
  | .hbm, ⟨60, _⟩ => ⟨S_, .i32⟩
  | .hbm, ⟨61, _⟩ => ⟨S640000, .i32⟩
  | .hbm, ⟨62, _⟩ => ⟨S640000, .i32⟩
  | .hbm, ⟨63, _⟩ => ⟨S_, .i32⟩
  | .hbm, ⟨64, _⟩ => ⟨S640000, .i32⟩
  | .hbm, ⟨65, _⟩ => ⟨S640000, .i1⟩
  | .hbm, ⟨66, _⟩ => ⟨S_, .i32⟩
  | .hbm, ⟨67, _⟩ => ⟨S640000, .i32⟩
  | .hbm, ⟨68, _⟩ => ⟨S640000, .i32⟩
  | .hbm, ⟨69, _⟩ => ⟨S640000, .i32⟩
  | .hbm, ⟨70, _⟩ => ⟨S640000x1, .i32⟩
  | .hbm, ⟨71, _⟩ => ⟨S640000, .i32⟩
  | .hbm, ⟨72, _⟩ => ⟨S640000, .i32⟩
  | .hbm, ⟨73, _⟩ => ⟨S_, .i32⟩
  | .hbm, ⟨74, _⟩ => ⟨S640000, .i32⟩
  | .hbm, ⟨75, _⟩ => ⟨S640000, .i1⟩
  | .hbm, ⟨76, _⟩ => ⟨S_, .i32⟩
  | .hbm, ⟨77, _⟩ => ⟨S640000, .i32⟩
  | .hbm, ⟨78, _⟩ => ⟨S640000, .i32⟩
  | .hbm, ⟨79, _⟩ => ⟨S640000, .i32⟩
  | .hbm, ⟨80, _⟩ => ⟨S640000x1, .i32⟩
  | .hbm, ⟨81, _⟩ => ⟨S640000x1, .f32⟩
  | .hbm, ⟨82, _⟩ => ⟨S640000x1, .f32⟩
  | .hbm, ⟨83, _⟩ => ⟨S_, .f32⟩
  | .hbm, ⟨84, _⟩ => ⟨S50000x1, .f32⟩
  | .hbm, ⟨85, _⟩ => ⟨S640000x1, .i32⟩
  | .hbm, ⟨86, _⟩ => ⟨S50000x1, .f32⟩
  | .hbm, ⟨87, _⟩ => ⟨S50000x1, .f32⟩
  | .hbm, ⟨88, _⟩ => ⟨S_, .i32⟩
  | .hbm, ⟨89, _⟩ => ⟨S50000, .i32⟩
  | .hbm, ⟨90, _⟩ => ⟨S50000, .i1⟩
  | .hbm, ⟨91, _⟩ => ⟨S_, .i32⟩
  | .hbm, ⟨92, _⟩ => ⟨S50000, .i32⟩
  | .hbm, ⟨93, _⟩ => ⟨S50000, .i32⟩
  | .hbm, ⟨94, _⟩ => ⟨S50000, .i32⟩
  | .hbm, ⟨95, _⟩ => ⟨S50000x1, .i32⟩
  | .hbm, ⟨96, _⟩ => ⟨S50000x1, .f32⟩
  | .hbm, ⟨97, _⟩ => ⟨S50000x1, .f32⟩
  | .hbm, ⟨98, _⟩ => ⟨S_, .i32⟩
  | .hbm, ⟨99, _⟩ => ⟨S50000, .i32⟩
  | .hbm, ⟨100, _⟩ => ⟨S50000, .i1⟩
  | .hbm, ⟨101, _⟩ => ⟨S_, .i32⟩
  | .hbm, ⟨102, _⟩ => ⟨S50000, .i32⟩
  | .hbm, ⟨103, _⟩ => ⟨S50000, .i32⟩
  | .hbm, ⟨104, _⟩ => ⟨S50000, .i32⟩
  | .hbm, ⟨105, _⟩ => ⟨S50000x1, .i32⟩
  | .hbm, ⟨106, _⟩ => ⟨S50000x1, .f32⟩
  | .hbm, ⟨107, _⟩ => ⟨S50000x1, .f32⟩
  | .hbm, ⟨108, _⟩ => ⟨S_, .f32⟩
  | .hbm, ⟨109, _⟩ => ⟨S32x1, .f32⟩
  | .hbm, ⟨110, _⟩ => ⟨S50000x1, .i32⟩
  | .hbm, ⟨111, _⟩ => ⟨S32x1, .f32⟩
  | .hbm, ⟨112, _⟩ => ⟨S32, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_c : Ref sig .tc := ⟨.hbm, 51, rfl⟩
abbrev main_v18 : Ref sig .tc := ⟨.hbm, 52, rfl⟩
abbrev main_v19 : Ref sig .tc := ⟨.hbm, 53, rfl⟩
abbrev main_c_0 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_c_1 : Ref sig .tc := ⟨.hbm, 60, rfl⟩
abbrev main_v25 : Ref sig .tc := ⟨.hbm, 61, rfl⟩
abbrev main_v26 : Ref sig .tc := ⟨.hbm, 62, rfl⟩
abbrev main_c_2 : Ref sig .tc := ⟨.hbm, 63, rfl⟩
abbrev main_v27 : Ref sig .tc := ⟨.hbm, 64, rfl⟩
abbrev main_v28 : Ref sig .tc := ⟨.hbm, 65, rfl⟩
abbrev main_c_3 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_c_4 : Ref sig .tc := ⟨.hbm, 73, rfl⟩
abbrev main_v35 : Ref sig .tc := ⟨.hbm, 74, rfl⟩
abbrev main_v36 : Ref sig .tc := ⟨.hbm, 75, rfl⟩
abbrev main_c_5 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c_6 : Ref sig .tc := ⟨.hbm, 88, rfl⟩
abbrev main_v47 : Ref sig .tc := ⟨.hbm, 89, rfl⟩
abbrev main_v48 : Ref sig .tc := ⟨.hbm, 90, rfl⟩
abbrev main_c_7 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_c_8 : Ref sig .tc := ⟨.hbm, 98, rfl⟩
abbrev main_v55 : Ref sig .tc := ⟨.hbm, 99, rfl⟩
abbrev main_v56 : Ref sig .tc := ⟨.hbm, 100, rfl⟩
abbrev main_c_9 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_cst_10 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1x1_S640000x1_0_1 : S1x1.BroadcastsInDim S640000x1 (![0, 1] : Fin 2 → Fin S640000x1.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S50000x1 : S_.BroadcastsInDim S50000x1 (![] : Fin 0 → Fin S50000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S32x1 : S_.BroadcastsInDim S32x1 (![] : Fin 0 → Fin S32x1.rank)
  shapeCasts_S32x1_S32 : S32x1.ShapeCasts S32
  dot_S50000x256_S256x256_S50000x256_1_0_0_1_n_n_wf : DotDims.WF S50000x256 S256x256 S50000x256 [1] [0] [0] [1] [] []
  dot_S50000x256_S256x1_S50000x1_1_0_0_1_n_n_wf : DotDims.WF S50000x256 S256x1 S50000x1 [1] [0] [0] [1] [] []
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []
  gather_S50000_S640000x1_S640000_n_0_n_n_0_1_1_wf : GatherDims.WF S50000 S640000x1 S640000 [] [0] [] [0] [] 1 ![1]
  gather_S10201x1_S640000x1_S640000x1_1_0_n_n_0_1_11_wf : GatherDims.WF S10201x1 S640000x1 S640000x1 [1] [0] [] [0] [] 1 ![1, 1]
  scatter_S50000x1_S640000x1_S640000x1_1_0_0_1_wf : ScatterDims.WF S50000x1 S640000x1 S640000x1 [1] [0] [0] 1
  gather_S101x1_S50000x1_S50000x1_1_0_n_n_0_1_11_wf : GatherDims.WF S101x1 S50000x1 S50000x1 [1] [0] [] [0] [] 1 ![1, 1]
  scatter_S32x1_S50000x1_S50000x1_1_0_0_1_wf : ScatterDims.WF S32x1 S50000x1 S50000x1 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S10201x1_S640000x1_S640000x1_1_0_n_n_0_1_11 : GatherDims S10201x1 S640000x1 S640000x1 where
  offsetDims := [1]
  collapsedSliceDims := [0]
  operandBatchingDims := []
  startIndicesBatchingDims := []
  startIndexMap := [0]
  indexVectorDim := 1
  sliceSizes := ![1, 1]
  wf := gather_S10201x1_S640000x1_S640000x1_1_0_n_n_0_1_11_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def gather_S101x1_S50000x1_S50000x1_1_0_n_n_0_1_11 : GatherDims S101x1 S50000x1 S50000x1 where
  offsetDims := [1]
  collapsedSliceDims := [0]
  operandBatchingDims := []
  startIndicesBatchingDims := []
  startIndexMap := [0]
  indexVectorDim := 1
  sliceSizes := ![1, 1]
  wf := gather_S101x1_S50000x1_S50000x1_1_0_n_n_0_1_11_wf
def scatter_S32x1_S50000x1_S50000x1_1_0_0_1 : ScatterDims S32x1 S50000x1 S50000x1 where
  updateWindowDims := [1]
  insertedWindowDims := [0]
  scatterDimsToOperandDims := [0]
  indexVectorDim := 1
  wf := scatter_S32x1_S50000x1_S50000x1_1_0_0_1_wf

class Facts : Prop extends Facts₀ where

variable [Facts]
-- ==== Proof.KernelRun.lean ====
/-
  The idealized kernel's whole run with its result named.

  The program is two grid launches followed by a stretch of host operations. The buffer contents at the three
  boundaries are a fold from the launch memory: after the first launch its output array holds what its grid points wrote
  back and every other buffer is as before; likewise after the second; and the host stretch maps those contents to the
  final ones. Every weakly fair execution terminates without a fault in a state where every buffer that outlives the
  launches holds the final contents of that fold. Read at the result buffer this names the program's result; read at an
  argument it gives back the argument as launched, because neither a launch nor a host operation writes one.
-/
import proofs.«111146_j14405320311651_2_alg».proof.Proof.KernelIdealFrameP

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    the result buffer at the last boundary's contents and every argument as launched: the launch over the program's
    three segments, the last thread state read against the final state. -/
theorem run_result : θ_run defs (onTc (τ := τ) (main (F := F))) ⟨m, fun _ => 0, ρ⟩ (fun r => ∀ c : Dev nD,
      r.2.mem ((c.tc : Thread nD τ).loc main_v50) = W3 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v50 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c),
       (h c _ (mem_uc main_arg15 (by decide))).trans (W3_main_arg15 m ρ c),
       (h c _ (mem_uc main_arg16 (by decide))).trans (W3_main_arg16 m ρ c)⟩)

end Cert.KernelIdeal.Run

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibLinearLayer.lean ====
/-
  A linear layer read at an index, at the ideal values.

  For a matrix x (m rows, k columns), a weight matrix W (k rows, n columns) and a bias row β, the layer's value at row a
  and column q is (∑ c, x(a, c) · W(c, q)) + β(q). Two spellings of it are read here and shown to be this one function:
  the product of the two matrices rounded to a narrower format (which, at the ideal values, changes nothing) into a
  zero accumulator, plus the bias row broadcast over the rows; and the host's product of the two matrices plus the bias
  vector broadcast twice, first to one row and then over the rows. A block of consecutive rows of the layer's value is
  the layer applied to the same rows of x.
-/
import Idealize.ShloMosaic.PureOps.Ideal.Laws
import Idealize.ShloMosaic.Lib.ValueIdx
import Idealize.ShloMosaic.Lib.ValueLayout
import Idealize.ShloMosaic.Lib.StackMember
import proofs.«111146_j14405320311651_2_alg».proof.Proof.LibMatmulPlain

noncomputable section

namespace Cert.LibLinearLayer

open Idealize.ShloMosaic Idealize.ShloMosaic.ValueIdx

variable {m k n : Nat}

/-- The linear layer: at row a and column q, the sum over c of x(a, c) · W(c, q), plus the bias at column q. -/
def lin (x : FVec Ideal ⟨2, ![m, k]⟩ .f32) (W : FVec Ideal ⟨2, ![k, n]⟩ .f32) (β : Fin n → EReal) :
    FVec Ideal ⟨2, ![m, n]⟩ .f32 :=
  fun i => (∑ c : Fin k, x (ix2 (show Fin m from i 0) c) * W (ix2 c (show Fin n from i 1))) + β (show Fin n from i 1)

theorem lin_apply (x : FVec Ideal ⟨2, ![m, k]⟩ .f32) (W : FVec Ideal ⟨2, ![k, n]⟩ .f32) (β : Fin n → EReal)
    (a : Fin m) (q : Fin n) :
    lin x W β (ix2 a q) = (∑ c : Fin k, x (ix2 a c) * W (ix2 c q)) + β q := rfl

/-- The kernel's spelling: both operands rounded to bf16 (the identity at the ideal values), multiplied into a zero
    accumulator, and the one bias row broadcast over the rows and added. -/
theorem body_eq_lin (D : DotDims ⟨2, ![m, k]⟩ ⟨2, ![k, n]⟩ ⟨2, ![m, n]⟩) (hD : D = DotDims.plain m k n)
    (hbits : FTy.bits .bf16 < FTy.bits .f32)
    (hb : (⟨2, ![1, n]⟩ : Shape).Broadcasts ⟨2, ![m, n]⟩)
    (A : FVec Ideal ⟨2, ![m, k]⟩ .f32) (B : FVec Ideal ⟨2, ![k, n]⟩ .f32) (bias : FVec Ideal ⟨2, ![1, n]⟩ .f32) :
    addf (matmul D none (truncf .bf16 A hbits) (truncf .bf16 B hbits) (constant (F := Ideal) ⟨2, ![m, n]⟩ .f32 0x00000000#32))
        (broadcastTo ⟨2, ![m, n]⟩ bias hb)
      = lin A B (fun q => bias (ix2 (0 : Fin 1) q)) := by
  subst hD
  funext j
  obtain ⟨a, q, rfl⟩ : ∃ (a : Fin m) (q : Fin n), j = ix2 a q := ⟨j 0, j 1, eq_ix2 j⟩
  rw [lin_apply, addf_apply, Cert.LibMatmulPlain.matmul_plain_zero_apply, broadcastTo_1b_ab_apply]
  rfl

/-- The host's spelling: the product of the two matrices, plus the bias vector made a row and then broadcast over the
    rows. -/
theorem host_eq_lin (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1])
    (h2 : (⟨2, ![1, n]⟩ : Shape).BroadcastsInDim ⟨2, ![m, n]⟩ ![0, 1])
    (x : FVec Ideal ⟨2, ![m, k]⟩ .f32) (W : FVec Ideal ⟨2, ![k, n]⟩ .f32) (b : FVec Ideal ⟨1, ![n]⟩ .f32) :
    addf (Host.dotGeneral D none x W)
        (broadcastInDim ⟨2, ![m, n]⟩ ![0, 1] h2 (broadcastInDim ⟨2, ![1, n]⟩ ![1] h1 b))
      = lin x W (fun q => b (ix1 q)) := by
  subst hD
  funext j
  obtain ⟨a, q, rfl⟩ : ∃ (a : Fin m) (q : Fin n), j = ix2 a q := ⟨j 0, j 1, eq_ix2 j⟩
  rw [lin_apply, addf_apply, StackMember.dotGeneral_plain_apply]
  congr 1
  rw [broadcastInDim_apply ![0, 1] h2 _ (ix2 a q) (ix2 (0 : Fin 1) q) (fun ax => by
    match ax with
    | ⟨0, _⟩ => show (0 : Nat) = if (1 : Nat) = 1 then 0 else a.val; rw [if_pos rfl]
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

/-- Rows T·r … T·r + r − 1 of the layer's value are the layer applied to the same rows of x: if a block xb of r rows
    holds those rows of x, the layer of the block at (a, q) is the layer of x at (T·r + a, q). -/
theorem lin_rows {M r : Nat} (X : FVec Ideal ⟨2, ![M, k]⟩ .f32) (xb : FVec Ideal ⟨2, ![r, k]⟩ .f32)
    (W : FVec Ideal ⟨2, ![k, n]⟩ .f32) (β : Fin n → EReal) (a : Fin r) (A : Fin M) (q : Fin n)
    (hx : ∀ c : Fin k, xb (ix2 a c) = X (ix2 A c)) :
    lin xb W β (ix2 a q) = lin X W β (ix2 A q) := by
  rw [lin_apply, lin_apply]
  congr 1
  exact Finset.sum_congr rfl fun c _ => by rw [hx c]

end Cert.LibLinearLayer

end
-- ==== Proof.LibMlp.lean ====
/-
  A perceptron with one hidden layer and a scalar output, at the ideal values.

  For a matrix x (M rows, k columns), a square weight matrix W₁, a bias b₁ of length k, a weight column W₂ (k rows, one
  column) and a bias b₂ of length one, the hidden layer at row a and column q is silu(∑ c, x(a, c) · W₁(c, q) + b₁(q)),
  where silu z = z · σ(z) and σ z = 1 / (1 + e^(−z)) is the logistic function, and the output at row a is
  ∑ q, hidden(a, q) · W₂(q, 0) + b₂(0). Two spellings are shown to be this one function: products of operands rounded to a
  narrower format (which changes nothing at the ideal values) into zero accumulators, the bias vectors made rows by a
  cast and repeated over the rows, and σ as one operation; and the host's products, the bias vectors broadcast twice,
  and σ written out as 1 / (1 + e^(−z)) over arrays filled with the constant one. Every row of the output depends on
  the same row of x only, so a block of rows of the output is the perceptron of the same rows of x.
-/
import Idealize.ShloMosaic.PureOps.Ideal.Laws
import Idealize.ShloMosaic.Lib.ValueIdx
import Idealize.ShloMosaic.Lib.ValueLayout
import Idealize.ShloMosaic.Lib.IdealHost
import proofs.«111146_j14405320311651_2_alg».proof.Proof.LibLinearLayer

noncomputable section

namespace Cert.Mlp

open Idealize.ShloMosaic Idealize.ShloMosaic.ValueIdx Cert.LibLinearLayer

variable {M r k : Nat}

/-- silu z = z · σ(z), with σ the logistic function, on the extended reals. -/
def silu (z : EReal) : EReal := z * Ideal.logistic z

/-- The hidden layer: silu of the linear layer x · W₁ + b₁, entry by entry. -/
def hidden (x : FVec Ideal ⟨2, ![M, k]⟩ .f32) (W1 : FVec Ideal ⟨2, ![k, k]⟩ .f32) (b1 : FVec Ideal ⟨1, ![k]⟩ .f32) :
    FVec Ideal ⟨2, ![M, k]⟩ .f32 :=
  fun i => silu (lin x W1 (fun q => b1 (ix1 q)) i)

/-- The perceptron: the linear layer hidden · W₂ + b₂ over the hidden layer. -/
def mlp (x : FVec Ideal ⟨2, ![M, k]⟩ .f32) (W1 : FVec Ideal ⟨2, ![k, k]⟩ .f32) (b1 : FVec Ideal ⟨1, ![k]⟩ .f32)
    (W2 : FVec Ideal ⟨2, ![k, 1]⟩ .f32) (b2 : FVec Ideal ⟨1, ![1]⟩ .f32) : FVec Ideal ⟨2, ![M, 1]⟩ .f32 :=
  lin (hidden x W1 b1) W2 (fun q => b2 (ix1 q))

/-- The first spelling: both products into zero accumulators with operands rounded to bf16, each bias vector cast to
    one row and repeated over the rows, σ as one operation. `h` names the first layer's value. -/
theorem body_eq_mlp
    (D1 : DotDims ⟨2, ![r, k]⟩ ⟨2, ![k, k]⟩ ⟨2, ![r, k]⟩) (hD1 : D1 = DotDims.plain r k k)
    (D2 : DotDims ⟨2, ![r, k]⟩ ⟨2, ![k, 1]⟩ ⟨2, ![r, 1]⟩) (hD2 : D2 = DotDims.plain r k 1)
    (hbits : FTy.bits .bf16 < FTy.bits .f32)
    (hc1 : (⟨1, ![k]⟩ : Shape).ShapeCasts ⟨2, ![1, k]⟩) (hb1 : (⟨2, ![1, k]⟩ : Shape).Broadcasts ⟨2, ![r, k]⟩)
    (hc2 : (⟨1, ![1]⟩ : Shape).ShapeCasts ⟨2, ![1, 1]⟩) (hb2 : (⟨2, ![1, 1]⟩ : Shape).Broadcasts ⟨2, ![r, 1]⟩)
    (x : FVec Ideal ⟨2, ![r, k]⟩ .f32) (W1 : FVec Ideal ⟨2, ![k, k]⟩ .f32) (b1 : FVec Ideal ⟨1, ![k]⟩ .f32)
    (W2 : FVec Ideal ⟨2, ![k, 1]⟩ .f32) (b2 : FVec Ideal ⟨1, ![1]⟩ .f32)
    (h : FVec Ideal ⟨2, ![r, k]⟩ .f32)
    (hh : h = addf (matmul D1 none (truncf .bf16 x hbits) (truncf .bf16 W1 hbits)
                  (constant (F := Ideal) ⟨2, ![r, k]⟩ .f32 0x00000000#32))
                (broadcastTo ⟨2, ![r, k]⟩ (shapeCast ⟨2, ![1, k]⟩ b1 hc1) hb1)) :
    addf (matmul D2 none (truncf .bf16 (mulf h (logistic h)) hbits) (truncf .bf16 W2 hbits)
            (constant (F := Ideal) ⟨2, ![r, 1]⟩ .f32 0x00000000#32))
        (broadcastTo ⟨2, ![r, 1]⟩ (shapeCast ⟨2, ![1, 1]⟩ b2 hc2) hb2)
      = mlp x W1 b1 W2 b2 := by
  have e1 : (fun q : Fin k => shapeCast ⟨2, ![1, k]⟩ b1 hc1 (ix2 (0 : Fin 1) q)) = fun q => b1 (ix1 q) :=
    funext fun q => shapeCast_a_1a_apply b1 hc1 0 q
  have e2 : (fun q : Fin 1 => shapeCast ⟨2, ![1, 1]⟩ b2 hc2 (ix2 (0 : Fin 1) q)) = fun q => b2 (ix1 q) :=
    funext fun q => shapeCast_a_1a_apply b2 hc2 0 q
  rw [body_eq_lin D1 hD1 hbits hb1, e1] at hh
  rw [body_eq_lin D2 hD2 hbits hb2, e2]
  subst hh
  rfl

/-- The second spelling: the host's two products, each bias vector broadcast to one row and then over the rows, and
    σ(z) written as 1 / (1 + e^(−z)) over arrays filled with the constant one. -/
theorem host_eq_mlp
    (D1 : DotDims ⟨2, ![M, k]⟩ ⟨2, ![k, k]⟩ ⟨2, ![M, k]⟩) (hD1 : D1 = DotDims.plain M k k)
    (D2 : DotDims ⟨2, ![M, k]⟩ ⟨2, ![k, 1]⟩ ⟨2, ![M, 1]⟩) (hD2 : D2 = DotDims.plain M k 1)
    (h1 : (⟨1, ![k]⟩ : Shape).BroadcastsInDim ⟨2, ![1, k]⟩ ![1])
    (h2 : (⟨2, ![1, k]⟩ : Shape).BroadcastsInDim ⟨2, ![M, k]⟩ ![0, 1])
    (h3 : (⟨1, ![1]⟩ : Shape).BroadcastsInDim ⟨2, ![1, 1]⟩ ![1])
    (h4 : (⟨2, ![1, 1]⟩ : Shape).BroadcastsInDim ⟨2, ![M, 1]⟩ ![0, 1])
    (h0 : (⟨0, ![]⟩ : Shape).BroadcastsInDim ⟨2, ![M, k]⟩ ![])
    (x : FVec Ideal ⟨2, ![M, k]⟩ .f32) (W1 : FVec Ideal ⟨2, ![k, k]⟩ .f32) (b1 : FVec Ideal ⟨1, ![k]⟩ .f32)
    (W2 : FVec Ideal ⟨2, ![k, 1]⟩ .f32) (b2 : FVec Ideal ⟨1, ![1]⟩ .f32)
    (h : FVec Ideal ⟨2, ![M, k]⟩ .f32)
    (hh : h = addf (Host.dotGeneral D1 none x W1)
                (broadcastInDim ⟨2, ![M, k]⟩ ![0, 1] h2 (broadcastInDim ⟨2, ![1, k]⟩ ![1] h1 b1))) :
    addf (Host.dotGeneral D2 none
            (mulf h (Host.divf (broadcastInDim ⟨2, ![M, k]⟩ ![] h0 (constant (F := Ideal) ⟨0, ![]⟩ .f32 0x3F800000#32))
              (addf (broadcastInDim ⟨2, ![M, k]⟩ ![] h0 (constant (F := Ideal) ⟨0, ![]⟩ .f32 0x3F800000#32))
                (Host.exp (Host.negf h))))) W2)
        (broadcastInDim ⟨2, ![M, 1]⟩ ![0, 1] h4 (broadcastInDim ⟨2, ![1, 1]⟩ ![1] h3 b2))
      = mlp x W1 b1 W2 b2 := by
  rw [host_eq_lin D1 hD1 h1 h2] at hh
  rw [host_eq_lin D2 hD2 h3 h4]
  subst hh
  unfold mlp
  congr 1
  funext i
  have one : broadcastInDim ⟨2, ![M, k]⟩ ![] h0 (constant (F := Ideal) ⟨0, ![]⟩ .f32 0x3F800000#32) i = (1 : EReal) := by
    rw [broadcastInDim_scalar_apply]; exact Ideal.ofBits_one_f32
  show lin x W1 (fun q => b1 (ix1 q)) i
      * Ideal.div (broadcastInDim ⟨2, ![M, k]⟩ ![] h0 (constant (F := Ideal) ⟨0, ![]⟩ .f32 0x3F800000#32) i)
          (broadcastInDim ⟨2, ![M, k]⟩ ![] h0 (constant (F := Ideal) ⟨0, ![]⟩ .f32 0x3F800000#32) i
            + Ideal.exp (-(lin x W1 (fun q => b1 (ix1 q)) i)))
    = silu (lin x W1 (fun q => b1 (ix1 q)) i)
  rw [one]
  rfl

/-- Row A of the perceptron of x is the perceptron, at row a, of any block xb whose row a is row A of x. -/
theorem mlp_rows (X : FVec Ideal ⟨2, ![M, k]⟩ .f32) (xb : FVec Ideal ⟨2, ![r, k]⟩ .f32)
    (W1 : FVec Ideal ⟨2, ![k, k]⟩ .f32) (b1 : FVec Ideal ⟨1, ![k]⟩ .f32)
    (W2 : FVec Ideal ⟨2, ![k, 1]⟩ .f32) (b2 : FVec Ideal ⟨1, ![1]⟩ .f32) (a : Fin r) (A : Fin M) (q : Fin 1)
    (hx : ∀ c : Fin k, xb (ix2 a c) = X (ix2 A c)) :
    mlp xb W1 b1 W2 b2 (ix2 a q) = mlp X W1 b1 W2 b2 (ix2 A q) := by
  unfold mlp
  refine lin_rows (hidden X W1 b1) (hidden xb W1 b1) W2 _ a A q fun c => ?_
  show silu (lin xb W1 _ (ix2 a c)) = silu (lin X W1 _ (ix2 A c))
  rw [lin_rows X xb W1 _ a A c hx]

end Cert.Mlp

end
-- ==== Proof.NodeLayer.lean ====
/-
  What the first launch leaves in its output array, at the ideal values.

  The launch runs over 25 grid points. Point t stages rows 2000·t … 2000·t + 1999 of the 50000 × 256 feature matrix,
  the whole of both weight matrices and both bias vectors, computes the perceptron of LibMlp.lean on the staged rows and
  writes its 2000 outputs back to rows 2000·t … 2000·t + 1999 of the 50000 × 1 output array. A row of the perceptron's
  output depends on the same row of the features only, so what point t writes back is that block of rows of the
  perceptron of the whole feature matrix; the 25 blocks tile the output array (row i lies in the block of point
  i / 2000), so the array ends holding the perceptron of the whole matrix.
-/
import proofs.«111146_j14405320311651_2_alg».proof.Proof.KernelIdealFrameP
import proofs.«111146_j14405320311651_2_alg».proof.Proof.LibMlp
import Idealize.ShloMosaic.Lib.Pipeline.Value
import Idealize.ShloMosaic.PureOps.Ideal

set_option maxRecDepth 16384

noncomputable section

namespace Cert.KernelIdeal.NodeLayer

open Cert.KernelIdeal Cert.KernelIdeal.Gen Cert.KernelIdeal.GenP
open Idealize.ShloMosaic Idealize.ShloMosaic.TcCoe Idealize.ShloMosaic.ValueIdx Idealize.SL.Sem
open Cert.Mlp

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The body's stored value is the perceptron of the five loaded blocks. -/
theorem payload_eq (v0 : Vec Ideal S2000x256 .f32) (v2 : Vec Ideal S256x256 .f32) (v5 : Vec Ideal S256 .f32)
    (v12 : Vec Ideal S256x1 .f32) (v15 : Vec Ideal S1 .f32) :
    k0_pay1 (F := Ideal) v0 v2 v5 v12 v15 = mlp v0 v2 v5 v12 v15 := by
  unfold k0_pay1
  exact body_eq_mlp _ rfl _ rfl _ _ _ _ _ v0 v2 v5 v12 v15 _ rfl

/-- The printed index maps over the 25 points: the feature and the output windows move with the point along the rows,
    every other window stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The perceptron of a block of 2000 rows, with the weights and biases of the whole, is rows 2000·T … of the
    perceptron of the whole matrix. -/
theorem block_eq (X : FVec Ideal S50000x256 .f32) (W1 : FVec Ideal S256x256 .f32) (b1 : FVec Ideal S256 .f32)
    (W2 : FVec Ideal S256x1 .f32) (b2 : FVec Ideal S1 .f32)
    (xb : FVec Ideal S2000x256 .f32) (w1b : FVec Ideal S256x256 .f32) (b1b : FVec Ideal S256 .f32)
    (w2b : FVec Ideal S256x1 .f32) (b2b : FVec Ideal S1 .f32)
    (T : Nat) (hT : T < 25)
    (hx : ∀ (a : Fin 2000) (cc : Fin 256), xb (ix2 a cc) = X (ix2 (⟨T * 2000 + a.val, by omega⟩ : Fin 50000) cc))
    (h1 : w1b = W1) (h2 : b1b = b1) (h3 : w2b = W2) (h4 : b2b = b2) (a : Fin 2000) (q : Fin 1) :
    mlp xb w1b b1b w2b b2b (ix2 a q) = mlp X W1 b1 W2 b2 (ix2 (⟨T * 2000 + a.val, by omega⟩ : Fin 50000) q) := by
  subst h1 h2 h3 h4
  exact mlp_rows X xb w1b b1b w2b b2b a _ q (hx a)

/-- What point t writes back is block t of the perceptron of the arrays as the launch finds them. -/
theorem flushed_eq (c : Dev nD) (t : Fin cfg0.N) :
    (dat0 V c).flushed 5 t = ((cfg0.win 5).blk t).view.read (Elt Ideal)
      (mlp (V c main_arg0) (V c main_arg2) (V c main_arg3) (V c main_arg4) (V c main_arg5)) := by
  show (cfg0.win 5).cut (grid0.coords t) ((dat0 V c).after 5 t) = _
  rw [after0_5]
  unfold out0_5
  rw [View.canon_unit_zero zero2]
  simp only [View.ld_unit_zero (S := S2000x256) zero2, View.ld_unit_zero (S := S256x256) zero2,
    View.ld_unit_zero (S := S256) zero1, View.ld_unit_zero (S := S256x1) zero2, View.ld_unit_zero (S := S1) zero1]
  rw [payload_eq]
  obtain ⟨e0, e1, e2, e3, e4, e5, e6, e7, e8, e9⟩ := idx_facts t
  have hN : grid0.N = 25 := N_0
  have ht : t.val < 25 := lt_of_lt_of_eq t.isLt hN
  funext j
  obtain ⟨a, q, rfl⟩ : ∃ (a : Fin 2000) (q : Fin 1), j = ix2 a q := ⟨j 0, j 1, eq_ix2 j⟩
  have hemb : ((cfg0.win 5).blk t).view.emb (ix2 a q) = ix2 (⟨t.val * 2000 + a.val, by omega⟩ : Fin 50000) q := by
    funext ax; apply Fin.ext
    match ax with
    | ⟨0, _⟩ => show win0_5.index t (0 : Fin 2) * 2000 + 1 * a.val = t.val * 2000 + a.val; omega
    | ⟨1, _⟩ => show win0_5.index t (1 : Fin 2) * 1 + 1 * q.val = q.val; omega
  show mlp (fun y => V c main_arg0 (((cfg0.win 0).blk t).view.emb y)) (fun y => V c main_arg2 (((cfg0.win 1).blk t).view.emb y))
      (fun y => V c main_arg3 (((cfg0.win 2).blk t).view.emb y)) (fun y => V c main_arg4 (((cfg0.win 3).blk t).view.emb y))
      (fun y => V c main_arg5 (((cfg0.win 4).blk t).view.emb y)) (ix2 a q)
    = mlp (V c main_arg0) (V c main_arg2) (V c main_arg3) (V c main_arg4) (V c main_arg5) (((cfg0.win 5).blk t).view.emb (ix2 a q))
  rw [hemb]
  refine block_eq (V c main_arg0) (V c main_arg2) (V c main_arg3) (V c main_arg4) (V c main_arg5) _ _ _ _ _ t.val ht
    (fun a' cc => ?_) ?_ ?_ ?_ ?_ a q
  · show V c main_arg0 (((cfg0.win 0).blk t).view.emb (ix2 a' cc)) = _
    congr 1
    funext ax; apply Fin.ext
    match ax with
    | ⟨0, _⟩ => show win0_0.index t (0 : Fin 2) * 2000 + 1 * a'.val = t.val * 2000 + a'.val; omega
    | ⟨1, _⟩ => show win0_0.index t (1 : Fin 2) * 256 + 1 * cc.val = cc.val; omega
  · funext y
    show V c main_arg2 (((cfg0.win 1).blk t).view.emb y) = V c main_arg2 y
    congr 1
    funext ax; apply Fin.ext
    match ax with
    | ⟨0, _⟩ => show win0_1.index t (0 : Fin 2) * 256 + 1 * (y 0).val = (y 0).val; omega
    | ⟨1, _⟩ => show win0_1.index t (1 : Fin 2) * 256 + 1 * (y 1).val = (y 1).val; omega
  · funext y
    show V c main_arg3 (((cfg0.win 2).blk t).view.emb y) = V c main_arg3 y
    congr 1
    funext ax; apply Fin.ext
    match ax with
    | ⟨0, _⟩ => show win0_2.index t (0 : Fin 1) * 256 + 1 * (y 0).val = (y 0).val; omega
  · funext y
    show V c main_arg4 (((cfg0.win 3).blk t).view.emb y) = V c main_arg4 y
    congr 1
    funext ax; apply Fin.ext
    match ax with
    | ⟨0, _⟩ => show win0_3.index t (0 : Fin 2) * 256 + 1 * (y 0).val = (y 0).val; omega
    | ⟨1, _⟩ => show win0_3.index t (1 : Fin 2) * 1 + 1 * (y 1).val = (y 1).val; omega
  · funext y
    show V c main_arg5 (((cfg0.win 4).blk t).view.emb y) = V c main_arg5 y
    congr 1
    funext ax; apply Fin.ext
    match ax with
    | ⟨0, _⟩ => show win0_4.index t (0 : Fin 1) * 1 + 1 * (y 0).val = (y 0).val; omega

/-- An index of the output array is in point t's block iff each coordinate is in the block's range on its axis. -/
theorem mem_blk (t : Fin cfg0.N) (i : S50000x1.Idx) :
    i ∈ ((cfg0.win 5).blk t).view.set ↔ ∀ a : Fin 2, win0_5.index t a * S2000x1.size a ≤ (i a).val
      ∧ (i a).val < win0_5.index t a * S2000x1.size a + S2000x1.size a := by
  show i ∈ ((View.whole main_v0).slice (win0_5.rect t)).set ↔ _
  rw [View.set_slice_whole, Rect.mem_set_unit]
  exact Iff.rfl

/-- Row i of the output array lies in the block of point i / 2000. -/
theorem cover (i : S50000x1.Idx) :
    ∃ t : Fin cfg0.N, (cfg0.win 5).flush t = true ∧ i ∈ ((cfg0.win 5).blk t).view.set := by
  have hi0 : (i 0).val < 50000 := (i 0).isLt
  have hi1 : (i 1).val < 1 := (i 1).isLt
  have hN : grid0.N = 25 := N_0
  have hlt : (i 0).val / 2000 < grid0.N := by rw [hN]; omega
  obtain ⟨-, -, -, -, -, -, -, -, e8, e9⟩ := idx_facts ⟨(i 0).val / 2000, hlt⟩
  have e8' : win0_5.index ⟨(i 0).val / 2000, hlt⟩ (0 : Fin 2) = (i 0).val / 2000 := e8
  refine ⟨⟨(i 0).val / 2000, hlt⟩, flush0_5 _, ?_⟩
  rw [mem_blk]
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    rw [e8']; omega
  | ⟨1, _⟩ =>
    show win0_5.index ⟨(i 0).val / 2000, hlt⟩ (1 : Fin 2) * 1 ≤ (i 1).val
      ∧ (i 1).val < win0_5.index ⟨(i 0).val / 2000, hlt⟩ (1 : Fin 2) * 1 + 1
    rw [e9]; omega

/-- The output array after the launch: the perceptron of the arrays as the launch finds them. -/
theorem final (c : Dev nD) : (dat0 V c).arrAt 5 cfg0.N
    = mlp (V c main_arg0) (V c main_arg2) (V c main_arg3) (V c main_arg4) (V c main_arg5) :=
  (dat0 V c).arrAt_eq_of_cover 5 _ (fun t _ => flushed_eq V c t) cover

end Cert.KernelIdeal.NodeLayer

end
-- ==== Proof.EdgeLayer.lean ====
/-
  What the second launch leaves in its output array, at the ideal values.

  The launch runs over 80 grid points. Point t stages rows 8000·t … 8000·t + 7999 of the 640000 × 128 feature matrix,
  the whole of both weight matrices and both bias vectors, computes the perceptron of LibMlp.lean on the staged rows and
  writes its 8000 outputs back to rows 8000·t … 8000·t + 7999 of the 640000 × 1 output array. A row of the perceptron's
  output depends on the same row of the features only, so what point t writes back is that block of rows of the
  perceptron of the whole feature matrix; the 80 blocks tile the output array (row i lies in the block of point
  i / 8000), so the array ends holding the perceptron of the whole matrix.
-/
import proofs.«111146_j14405320311651_2_alg».proof.Proof.KernelIdealFrameP
import proofs.«111146_j14405320311651_2_alg».proof.Proof.LibMlp
import Idealize.ShloMosaic.Lib.Pipeline.Value
import Idealize.ShloMosaic.PureOps.Ideal

set_option maxRecDepth 16384

noncomputable section

namespace Cert.KernelIdeal.EdgeLayer

open Cert.KernelIdeal Cert.KernelIdeal.Gen Cert.KernelIdeal.GenP
open Idealize.ShloMosaic Idealize.ShloMosaic.TcCoe Idealize.ShloMosaic.ValueIdx Idealize.SL.Sem
open Cert.Mlp

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The body's stored value is the perceptron of the five loaded blocks. -/
theorem payload_eq (v0 : Vec Ideal S8000x128 .f32) (v2 : Vec Ideal S128x128 .f32) (v5 : Vec Ideal S128 .f32)
    (v12 : Vec Ideal S128x1 .f32) (v15 : Vec Ideal S1 .f32) :
    k1_pay1 (F := Ideal) v0 v2 v5 v12 v15 = mlp v0 v2 v5 v12 v15 := by
  unfold k1_pay1
  exact body_eq_mlp _ rfl _ rfl _ _ _ _ _ v0 v2 v5 v12 v15 _ rfl

/-- The printed index maps over the 80 points: the feature and the output windows move with the point along the rows,
    every other window stays at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The perceptron of a block of 8000 rows, with the weights and biases of the whole, is rows 8000·T … of the
    perceptron of the whole matrix. -/
theorem block_eq (X : FVec Ideal S640000x128 .f32) (W1 : FVec Ideal S128x128 .f32) (b1 : FVec Ideal S128 .f32)
    (W2 : FVec Ideal S128x1 .f32) (b2 : FVec Ideal S1 .f32)
    (xb : FVec Ideal S8000x128 .f32) (w1b : FVec Ideal S128x128 .f32) (b1b : FVec Ideal S128 .f32)
    (w2b : FVec Ideal S128x1 .f32) (b2b : FVec Ideal S1 .f32)
    (T : Nat) (hT : T < 80)
    (hx : ∀ (a : Fin 8000) (cc : Fin 128), xb (ix2 a cc) = X (ix2 (⟨T * 8000 + a.val, by omega⟩ : Fin 640000) cc))
    (h1 : w1b = W1) (h2 : b1b = b1) (h3 : w2b = W2) (h4 : b2b = b2) (a : Fin 8000) (q : Fin 1) :
    mlp xb w1b b1b w2b b2b (ix2 a q) = mlp X W1 b1 W2 b2 (ix2 (⟨T * 8000 + a.val, by omega⟩ : Fin 640000) q) := by
  subst h1 h2 h3 h4
  exact mlp_rows X xb w1b b1b w2b b2b a _ q (hx a)

/-- What point t writes back is block t of the perceptron of the arrays as the launch finds them. -/
theorem flushed_eq (c : Dev nD) (t : Fin cfg1.N) :
    (dat1 V c).flushed 5 t = ((cfg1.win 5).blk t).view.read (Elt Ideal)
      (mlp (V c main_arg1) (V c main_arg6) (V c main_arg7) (V c main_arg8) (V c main_arg9)) := by
  show (cfg1.win 5).cut (grid1.coords t) ((dat1 V c).after 5 t) = _
  rw [after1_5]
  unfold out1_5
  rw [View.canon_unit_zero zero2]
  simp only [View.ld_unit_zero (S := S8000x128) zero2, View.ld_unit_zero (S := S128x128) zero2,
    View.ld_unit_zero (S := S128) zero1, View.ld_unit_zero (S := S128x1) zero2, View.ld_unit_zero (S := S1) zero1]
  rw [payload_eq]
  obtain ⟨e0, e1, e2, e3, e4, e5, e6, e7, e8, e9⟩ := idx_facts t
  have hN : grid1.N = 80 := N_1
  have ht : t.val < 80 := lt_of_lt_of_eq t.isLt hN
  funext j
  obtain ⟨a, q, rfl⟩ : ∃ (a : Fin 8000) (q : Fin 1), j = ix2 a q := ⟨j 0, j 1, eq_ix2 j⟩
  have hemb : ((cfg1.win 5).blk t).view.emb (ix2 a q) = ix2 (⟨t.val * 8000 + a.val, by omega⟩ : Fin 640000) q := by
    funext ax; apply Fin.ext
    match ax with
    | ⟨0, _⟩ => show win1_5.index t (0 : Fin 2) * 8000 + 1 * a.val = t.val * 8000 + a.val; omega
    | ⟨1, _⟩ => show win1_5.index t (1 : Fin 2) * 1 + 1 * q.val = q.val; omega
  show mlp (fun y => V c main_arg1 (((cfg1.win 0).blk t).view.emb y)) (fun y => V c main_arg6 (((cfg1.win 1).blk t).view.emb y))
      (fun y => V c main_arg7 (((cfg1.win 2).blk t).view.emb y)) (fun y => V c main_arg8 (((cfg1.win 3).blk t).view.emb y))
      (fun y => V c main_arg9 (((cfg1.win 4).blk t).view.emb y)) (ix2 a q)
    = mlp (V c main_arg1) (V c main_arg6) (V c main_arg7) (V c main_arg8) (V c main_arg9) (((cfg1.win 5).blk t).view.emb (ix2 a q))
  rw [hemb]
  refine block_eq (V c main_arg1) (V c main_arg6) (V c main_arg7) (V c main_arg8) (V c main_arg9) _ _ _ _ _ t.val ht
    (fun a' cc => ?_) ?_ ?_ ?_ ?_ a q
  · show V c main_arg1 (((cfg1.win 0).blk t).view.emb (ix2 a' cc)) = _
    congr 1
    funext ax; apply Fin.ext
    match ax with
    | ⟨0, _⟩ => show win1_0.index t (0 : Fin 2) * 8000 + 1 * a'.val = t.val * 8000 + a'.val; omega
    | ⟨1, _⟩ => show win1_0.index t (1 : Fin 2) * 128 + 1 * cc.val = cc.val; omega
  · funext y
    show V c main_arg6 (((cfg1.win 1).blk t).view.emb y) = V c main_arg6 y
    congr 1
    funext ax; apply Fin.ext
    match ax with
    | ⟨0, _⟩ => show win1_1.index t (0 : Fin 2) * 128 + 1 * (y 0).val = (y 0).val; omega
    | ⟨1, _⟩ => show win1_1.index t (1 : Fin 2) * 128 + 1 * (y 1).val = (y 1).val; omega
  · funext y
    show V c main_arg7 (((cfg1.win 2).blk t).view.emb y) = V c main_arg7 y
    congr 1
    funext ax; apply Fin.ext
    match ax with
    | ⟨0, _⟩ => show win1_2.index t (0 : Fin 1) * 128 + 1 * (y 0).val = (y 0).val; omega
  · funext y
    show V c main_arg8 (((cfg1.win 3).blk t).view.emb y) = V c main_arg8 y
    congr 1
    funext ax; apply Fin.ext
    match ax with
    | ⟨0, _⟩ => show win1_3.index t (0 : Fin 2) * 128 + 1 * (y 0).val = (y 0).val; omega
    | ⟨1, _⟩ => show win1_3.index t (1 : Fin 2) * 1 + 1 * (y 1).val = (y 1).val; omega
  · funext y
    show V c main_arg9 (((cfg1.win 4).blk t).view.emb y) = V c main_arg9 y
    congr 1
    funext ax; apply Fin.ext
    match ax with
    | ⟨0, _⟩ => show win1_4.index t (0 : Fin 1) * 1 + 1 * (y 0).val = (y 0).val; omega

/-- An index of the output array is in point t's block iff each coordinate is in the block's range on its axis. -/
theorem mem_blk (t : Fin cfg1.N) (i : S640000x1.Idx) :
    i ∈ ((cfg1.win 5).blk t).view.set ↔ ∀ a : Fin 2, win1_5.index t a * S8000x1.size a ≤ (i a).val
      ∧ (i a).val < win1_5.index t a * S8000x1.size a + S8000x1.size a := by
  show i ∈ ((View.whole main_v1).slice (win1_5.rect t)).set ↔ _
  rw [View.set_slice_whole, Rect.mem_set_unit]
  exact Iff.rfl

/-- Row i of the output array lies in the block of point i / 8000. -/
theorem cover (i : S640000x1.Idx) :
    ∃ t : Fin cfg1.N, (cfg1.win 5).flush t = true ∧ i ∈ ((cfg1.win 5).blk t).view.set := by
  have hi0 : (i 0).val < 640000 := (i 0).isLt
  have hi1 : (i 1).val < 1 := (i 1).isLt
  have hN : grid1.N = 80 := N_1
  have hlt : (i 0).val / 8000 < grid1.N := by rw [hN]; omega
  obtain ⟨-, -, -, -, -, -, -, -, e8, e9⟩ := idx_facts ⟨(i 0).val / 8000, hlt⟩
  have e8' : win1_5.index ⟨(i 0).val / 8000, hlt⟩ (0 : Fin 2) = (i 0).val / 8000 := e8
  refine ⟨⟨(i 0).val / 8000, hlt⟩, flush1_5 _, ?_⟩
  rw [mem_blk]
  intro a
  match a with
  | ⟨0, _⟩ =>
    show win1_5.index ⟨(i 0).val / 8000, hlt⟩ (0 : Fin 2) * 8000 ≤ (i 0).val
      ∧ (i 0).val < win1_5.index ⟨(i 0).val / 8000, hlt⟩ (0 : Fin 2) * 8000 + 8000
    rw [e8']; omega
  | ⟨1, _⟩ =>
    show win1_5.index ⟨(i 0).val / 8000, hlt⟩ (1 : Fin 2) * 1 ≤ (i 1).val
      ∧ (i 1).val < win1_5.index ⟨(i 0).val / 8000, hlt⟩ (1 : Fin 2) * 1 + 1
    rw [e9]; omega

/-- The output array after the launch: the perceptron of the arrays as the launch finds them. -/
theorem final (c : Dev nD) : (dat1 V c).arrAt 5 cfg1.N
    = mlp (V c main_arg1) (V c main_arg6) (V c main_arg7) (V c main_arg8) (V c main_arg9) :=
  (dat1 V c).arrAt_eq_of_cover 5 _ (fun t _ => flushed_eq V c t) cover

end Cert.KernelIdeal.EdgeLayer

end
-- ==== Proof.Tail.lean ====
/-
  The host operations that follow the two perceptrons, as one function.

  Both programs end the same way. With z the species of each node, s and t the source and target node of each edge and g
  the graph of each node (an index below zero counts from the end of the axis it indexes): every edge value is scaled by
  the pair table at row 101 · z(s) + z(t); the scaled edge values are added up per target node and added to the node
  values; every node total is multiplied by its species' row of the scale table and the species' row of the shift table
  is added; and the results are added up per graph, giving one number for each of the 32 graphs. The function below is
  that chain, with the per-node and the per-edge values as its first two arguments. Nothing here opens it: the two
  programs are compared by showing that they feed it equal arguments.
-/
import proofs.«111146_j14405320311651_2_alg».proof.Proof.Gen.KernelIdeal
import Idealize.ShloMosaic.PureOps.Ideal

noncomputable section

namespace Cert.KernelIdeal.Tail

open Cert.KernelIdeal Cert.KernelIdeal.Facts₀ Idealize.ShloMosaic

/-- Integer and float arrays of a shape, at the ideal values. -/
abbrev IArr (s : Shape) : Type := (⟨s, .i32⟩ : BufTy).Contents (Elt Ideal)
abbrev FArr (s : Shape) : Type := FVec Ideal s .f32

/-- Per edge: an index below zero moved up by n (it counts from the end of an axis of length n). -/
def wrapEdge (x : IArr S640000) (n : BitVec 32) : IArr S640000 :=
  select (cmpi .slt x (broadcastInDim S640000 ![] bcast_S_S640000 (constantI S_ 32 0#32)))
    (addi x (broadcastInDim S640000 ![] bcast_S_S640000 (constantI S_ 32 n))) x

/-- Per node: a species below zero moved up by 101. -/
def wrapNode (x : IArr S50000) : IArr S50000 :=
  select (cmpi .slt x (broadcastInDim S50000 ![] bcast_S_S50000 (constantI S_ 32 0#32)))
    (addi x (broadcastInDim S50000 ![] bcast_S_S50000 (constantI S_ 32 101#32))) x

/-- The species of the node each edge names. -/
def speciesAt (z : IArr S50000) (e : IArr S640000) : IArr S640000 :=
  Host.gather gather_S50000_S640000x1_S640000_n_0_n_n_0_1_1 z
    (broadcastInDim S640000x1 ![0] bcast_S640000_S640000x1_0 (wrapEdge e 50000#32))

/-- The pair table's row for each edge: 101 · z(s) + z(t). -/
def pairRow (z : IArr S50000) (s t : IArr S640000) : IArr S640000 :=
  addi (muli (speciesAt z s) (broadcastInDim S640000 ![] bcast_S_S640000 (constantI S_ 32 101#32))) (speciesAt z t)

/-- The edge values scaled by their pair table entries. -/
def scaledEdges (pe : FArr S640000x1) (pair : FArr S10201x1) (z : IArr S50000) (s t : IArr S640000) : FArr S640000x1 :=
  mulf pe (Host.gather gather_S10201x1_S640000x1_S640000x1_1_0_n_n_0_1_11 pair
    (broadcastInDim S640000x1 ![0] bcast_S640000_S640000x1_0 (wrapEdge (pairRow z s t) 10201#32)))

/-- The node values plus, per node, the sum of the scaled values of the edges that target it. -/
def nodeTotals (pa : FArr S50000x1) (pe : FArr S640000x1) (pair : FArr S10201x1) (z : IArr S50000)
    (s t : IArr S640000) : FArr S50000x1 :=
  addf pa (Host.scatterAdd scatter_S50000x1_S640000x1_S640000x1_1_0_0_1
    (broadcastInDim S50000x1 ![] bcast_S_S50000x1 (constant (F := Ideal) S_ .f32 0x00000000#32))
    (broadcastInDim S640000x1 ![0] bcast_S640000_S640000x1_0 t) (scaledEdges pe pair z s t))

/-- A species table read at every node's species. -/
def tableAt (tab : FArr S101x1) (z : IArr S50000) : FArr S50000x1 :=
  Host.gather gather_S101x1_S50000x1_S50000x1_1_0_n_n_0_1_11 tab
    (broadcastInDim S50000x1 ![0] bcast_S50000_S50000x1_0 (wrapNode z))

/-- The whole chain: node totals scaled and shifted by species, then summed per graph. -/
def tail (pa : FArr S50000x1) (pe : FArr S640000x1) (scale shift : FArr S101x1) (pair : FArr S10201x1)
    (z : IArr S50000) (s t : IArr S640000) (g : IArr S50000) : FArr S32 :=
  shapeCast S32 (Host.scatterAdd scatter_S32x1_S50000x1_S50000x1_1_0_0_1
    (broadcastInDim S32x1 ![] bcast_S_S32x1 (constant (F := Ideal) S_ .f32 0x00000000#32))
    (broadcastInDim S50000x1 ![0] bcast_S50000_S50000x1_0 g)
    (addf (mulf (nodeTotals pa pe pair z s t) (tableAt scale z)) (tableAt shift z))) shapeCasts_S32x1_S32

end Cert.KernelIdeal.Tail

end
-- ==== Proof.KernelValue.lean ====
/-
  The idealized kernel's result as a function of its arguments.

  After the two launches the first output array holds the perceptron of the node features and the second that of the
  edge features (NodeLayer.lean, EdgeLayer.lean, each at the contents its launch finds: the arguments as launched, since
  the first launch writes no argument); every other buffer the host stretch reads is an argument, unchanged. The host
  stretch's 63 operations, read back at the result buffer, are the chain of Tail.lean applied to those two arrays and
  the remaining arguments.
-/
import proofs.«111146_j14405320311651_2_alg».proof.Proof.KernelIdealFrameP
import proofs.«111146_j14405320311651_2_alg».proof.Proof.NodeLayer
import proofs.«111146_j14405320311651_2_alg».proof.Proof.EdgeLayer
import proofs.«111146_j14405320311651_2_alg».proof.Proof.Tail
import Idealize.ShloMosaic.Lib.StableHlo.Run

set_option maxRecDepth 16384

noncomputable section

namespace Cert.KernelIdeal.KernelValue

open Cert.KernelIdeal Cert.KernelIdeal.Gen Cert.KernelIdeal.GenP Cert.KernelIdeal.Tail
open Idealize.ShloMosaic Idealize.ShloMosaic.TcCoe Idealize.ShloMosaic.Tactic Idealize.SL.Sem Idealize.ShloMosaic.StableHlo
open Cert.Mlp

set_option maxHeartbeats 4000000 in
/-- The host stretch after the launches, read at the result buffer from ANY contents W: the chain of Tail.lean of what
    W holds at the two launches' output arrays and at the arguments it reads. -/
theorem after_tail (W : Valuation τ sig (Elt Ideal)) :
    StableHlo.after (hostOps2 (F := Ideal)) W (Proc.devRef .tc main_v50)
      = tail (W (Proc.devRef .tc main_v0)) (W (Proc.devRef .tc main_v1)) (W (Proc.devRef .tc main_arg10))
          (W (Proc.devRef .tc main_arg11)) (W (Proc.devRef .tc main_arg12)) (W (Proc.devRef .tc main_arg13))
          (W (Proc.devRef .tc main_arg14)) (W (Proc.devRef .tc main_arg15)) (W (Proc.devRef .tc main_arg16)) := by
  after_results_simp
  rfl

variable (m : (ℓ : Loc nD τ sig) → Buf (Elt Ideal) ℓ) (ρ : Dev nD → PrngReg)

/-- A buffer that is an array of neither launch holds, after both, what it held at the start. -/
theorem kept (c : Dev nD) (b : Ref sig .tc) (h1 : ∀ w, Pipeline.arrRef spec1 w ≠ b) (h0 : ∀ w, Pipeline.arrRef spec0 w ≠ b) :
    W2 m ρ c (Proc.devRef .tc b) = m ((c : Thread nD τ).loc b) :=
  (W2_of_ne m ρ c b h1).trans ((W1_of_ne m ρ c b h0).trans rfl)

/-- After both launches the first output array is the perceptron of the node features. -/
theorem node_array (c : Dev nD) : W2 m ρ c (Proc.devRef .tc main_v0)
    = mlp (m ((c : Thread nD τ).loc main_arg0)) (m ((c : Thread nD τ).loc main_arg2)) (m ((c : Thread nD τ).loc main_arg3))
        (m ((c : Thread nD τ).loc main_arg4)) (m ((c : Thread nD τ).loc main_arg5)) :=
  (W2_of_ne m ρ c main_v0 (by decide)).trans ((W1_arr m ρ c 5).trans (NodeLayer.final (V0 m ρ) c))

/-- After both launches the second output array is the perceptron of the edge features. -/
theorem edge_array (c : Dev nD) : W2 m ρ c (Proc.devRef .tc main_v1)
    = mlp (m ((c : Thread nD τ).loc main_arg1)) (m ((c : Thread nD τ).loc main_arg6)) (m ((c : Thread nD τ).loc main_arg7))
        (m ((c : Thread nD τ).loc main_arg8)) (m ((c : Thread nD τ).loc main_arg9)) := by
  refine ((W2_arr m ρ c 5).trans (EdgeLayer.final (V1 m ρ) c)).trans ?_
  have e1 : V1 m ρ c main_arg1 = m ((c : Thread nD τ).loc main_arg1) := (W1_of_ne m ρ c main_arg1 (by decide)).trans rfl
  have e6 : V1 m ρ c main_arg6 = m ((c : Thread nD τ).loc main_arg6) := (W1_of_ne m ρ c main_arg6 (by decide)).trans rfl
  have e7 : V1 m ρ c main_arg7 = m ((c : Thread nD τ).loc main_arg7) := (W1_of_ne m ρ c main_arg7 (by decide)).trans rfl
  have e8 : V1 m ρ c main_arg8 = m ((c : Thread nD τ).loc main_arg8) := (W1_of_ne m ρ c main_arg8 (by decide)).trans rfl
  have e9 : V1 m ρ c main_arg9 = m ((c : Thread nD τ).loc main_arg9) := (W1_of_ne m ρ c main_arg9 (by decide)).trans rfl
  rw [e1, e6, e7, e8, e9]

/-- The program's result: the chain of Tail.lean of the two perceptrons and the remaining arguments. -/
theorem result_eq (c : Dev nD) : W3 m ρ c (Proc.devRef .tc main_v50)
    = tail
        (mlp (m ((c : Thread nD τ).loc main_arg0)) (m ((c : Thread nD τ).loc main_arg2)) (m ((c : Thread nD τ).loc main_arg3))
          (m ((c : Thread nD τ).loc main_arg4)) (m ((c : Thread nD τ).loc main_arg5)))
        (mlp (m ((c : Thread nD τ).loc main_arg1)) (m ((c : Thread nD τ).loc main_arg6)) (m ((c : Thread nD τ).loc main_arg7))
          (m ((c : Thread nD τ).loc main_arg8)) (m ((c : Thread nD τ).loc main_arg9)))
        (m ((c : Thread nD τ).loc main_arg10)) (m ((c : Thread nD τ).loc main_arg11)) (m ((c : Thread nD τ).loc main_arg12))
        (m ((c : Thread nD τ).loc main_arg13)) (m ((c : Thread nD τ).loc main_arg14)) (m ((c : Thread nD τ).loc main_arg15))
        (m ((c : Thread nD τ).loc main_arg16)) := by
  show StableHlo.after (hostOps2 (F := Ideal)) (W2 m ρ c) (Proc.devRef .tc main_v50) = _
  rw [after_tail, node_array m ρ c, edge_array m ρ c,
    kept m ρ c main_arg10 (by decide) (by decide), kept m ρ c main_arg11 (by decide) (by decide),
    kept m ρ c main_arg12 (by decide) (by decide), kept m ρ c main_arg13 (by decide) (by decide),
    kept m ρ c main_arg14 (by decide) (by decide), kept m ρ c main_arg15 (by decide) (by decide),
    kept m ρ c main_arg16 (by decide) (by decide)]

end Cert.KernelIdeal.KernelValue

end
-- ==== Proof.RefMlp.lean ====
/-
  The reference's two perceptrons, at the ideal values.

  The reference computes the per-node and the per-edge values each as a host product plus a bias broadcast over the
  rows, then x · 1 / (1 + e^(−x)) entry by entry, then a second host product plus a bias. Each is the perceptron of
  LibMlp.lean of the whole feature matrix.
-/
import proofs.«111146_j14405320311651_2_alg».proof.Proof.Gen.ReferenceIdeal.Read
import proofs.«111146_j14405320311651_2_alg».proof.Proof.LibMlp

noncomputable section

namespace Cert.ReferenceIdeal.RefMlp

open Cert.ReferenceIdeal Cert.ReferenceIdeal.Gen Cert.ReferenceIdeal.Read Idealize.ShloMosaic Cert.Mlp

/-- The per-node stage is the perceptron of the node features. -/
theorem node_eq (x0 : FVec Ideal S50000x256 .f32) (x2 : FVec Ideal S256x256 .f32) (x3 : FVec Ideal S256 .f32)
    (x4 : FVec Ideal S256x1 .f32) (x5 : FVec Ideal S1 .f32) :
    val_main_v8 (F := Ideal) x0 x2 x3 x4 x5 = mlp x0 x2 x3 x4 x5 := by
  unfold val_main_v8 val_main_v7 val_main_v6 val_main_v5 val_main_v4 val_main_call0_v5 val_main_call0_v4
    val_main_call0_cst_0 val_main_call0_v3 val_main_call0_v2 val_main_call0_cst val_main_call0_v1 val_main_call0_v0
  exact host_eq_mlp _ rfl _ rfl _ _ _ _ _ x0 x2 x3 x4 x5 _
    (by unfold val_main_v3 val_main_v2 val_main_v1 val_main_v0; rfl)

/-- The per-edge stage is the perceptron of the edge features. -/
theorem edge_eq (x1 : FVec Ideal S640000x128 .f32) (x6 : FVec Ideal S128x128 .f32) (x7 : FVec Ideal S128 .f32)
    (x8 : FVec Ideal S128x1 .f32) (x9 : FVec Ideal S1 .f32) :
    val_main_v17 (F := Ideal) x1 x6 x7 x8 x9 = mlp x1 x6 x7 x8 x9 := by
  unfold val_main_v17 val_main_v16 val_main_v15 val_main_v14 val_main_v13 val_main_call1_v5 val_main_call1_v4
    val_main_call1_cst_0 val_main_call1_v3 val_main_call1_v2 val_main_call1_cst val_main_call1_v1 val_main_call1_v0
  exact host_eq_mlp _ rfl _ rfl _ _ _ _ _ x1 x6 x7 x8 x9 _
    (by unfold val_main_v12 val_main_v11 val_main_v10 val_main_v9; rfl)

end Cert.ReferenceIdeal.RefMlp

end
-- ==== Proof.RefValue.lean ====
/-
  The reference's result as a function of its arguments.

  The reference computes the two perceptrons on the host (RefMlp.lean) and then applies, operation for operation, the
  chain of Tail.lean to them and the remaining arguments.
-/
import proofs.«111146_j14405320311651_2_alg».proof.Proof.Gen.ReferenceIdeal.Read
import proofs.«111146_j14405320311651_2_alg».proof.Proof.RefMlp
import proofs.«111146_j14405320311651_2_alg».proof.Proof.Tail

set_option maxRecDepth 16384

noncomputable section

namespace Cert.ReferenceIdeal.RefValue

open Cert.ReferenceIdeal Cert.ReferenceIdeal.Gen Cert.ReferenceIdeal.Read Idealize.ShloMosaic Cert.Mlp

/-- The reference's last stage is the chain of Tail.lean of the two perceptrons and the remaining arguments. -/
theorem result_eq (x0 : FVec Ideal S50000x256 .f32) (x1 : FVec Ideal S640000x128 .f32) (x2 : FVec Ideal S256x256 .f32)
    (x3 : FVec Ideal S256 .f32) (x4 : FVec Ideal S256x1 .f32) (x5 : FVec Ideal S1 .f32) (x6 : FVec Ideal S128x128 .f32)
    (x7 : FVec Ideal S128 .f32) (x8 : FVec Ideal S128x1 .f32) (x9 : FVec Ideal S1 .f32) (x10 x11 : FVec Ideal S101x1 .f32)
    (x12 : FVec Ideal S10201x1 .f32) (x13 : (⟨S50000, .i32⟩ : BufTy).Contents (Elt Ideal))
    (x14 x15 : (⟨S640000, .i32⟩ : BufTy).Contents (Elt Ideal)) (x16 : (⟨S50000, .i32⟩ : BufTy).Contents (Elt Ideal)) :
    val_main_v66 (F := Ideal) x0 x1 x2 x3 x4 x5 x6 x7 x8 x9 x10 x11 x12 x13 x14 x15 x16
      = Cert.KernelIdeal.Tail.tail (mlp x0 x2 x3 x4 x5) (mlp x1 x6 x7 x8 x9) x10 x11 x12 x13 x14 x15 x16 := by
  rw [← RefMlp.node_eq, ← RefMlp.edge_eq]
  rfl

end Cert.ReferenceIdeal.RefValue

end
-- ==== Proof.lean ====
/-
  The claims of this certificate: a scalar-output head over a graph, computed by two grid launches and a stretch of host
  operations, against its host-only reference, on the extended reals.

  Both programs compute, for every node and for every edge, a perceptron with one hidden layer — silu(x · W₁ + b₁) · W₂ + b₂,
  silu z = z · σ(z) — and then the same chain of host operations: edge values scaled by a pair table, added up per target
  node onto the node values, scaled and shifted per species, added up per graph. The launches compute each perceptron
  block of rows by block of rows, with operands rounded to a narrower format (the identity on the extended reals) and σ
  as one operation; the reference computes it on the whole matrix with σ written as 1 / (1 + e^(−z)). A row of a
  perceptron depends on the same row of its input only, so the blocks assemble to the perceptron of the whole matrix
  (NodeLayer.lean, EdgeLayer.lean over LibMlp.lean; the reference's in RefMlp.lean), the sums are taken in the same order on
  both sides, and the shared chain is carried as one function of equal arguments (Tail.lean). No law that needs finite
  values is used, so the precondition is never opened. The frames are the generated ones; the idealization rewrote no
  operation, so what it must preserve is trivially true.
-/
import proofs.«111146_j14405320311651_2_alg».proof.Defs
import proofs.«111146_j14405320311651_2_alg».proof.Proof.Gen.Kernel
import proofs.«111146_j14405320311651_2_alg».proof.Proof.Gen.KernelIdeal
import proofs.«111146_j14405320311651_2_alg».proof.Proof.Gen.ReferenceIdeal
import proofs.«111146_j14405320311651_2_alg».proof.Proof.Gen.Pre_finite_inputs
import proofs.«111146_j14405320311651_2_alg».proof.Proof.Gen.ReferenceIdeal.Run
import proofs.«111146_j14405320311651_2_alg».proof.Proof.Gen.ReferenceIdeal.Read
import proofs.«111146_j14405320311651_2_alg».proof.Proof.KernelFrameP
import proofs.«111146_j14405320311651_2_alg».proof.Proof.KernelIdealFrameP
import proofs.«111146_j14405320311651_2_alg».proof.Proof.KernelRun
import proofs.«111146_j14405320311651_2_alg».proof.Proof.KernelValue
import proofs.«111146_j14405320311651_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- And the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same 32 numbers: the shared chain of host
    operations applied to the node perceptron, the edge perceptron and the remaining arguments. -/
theorem algebraic : Cert.algebraic_KernelIdeal_ReferenceIdeal := by
  intro m ρ m' ρ' _ hagree
  refine ⟨fun c => Cert.KernelIdeal.GenP.W3 m ρ c (Proc.devRef .tc Cert.KernelIdeal.main_v50),
    Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  rw [Cert.ReferenceIdeal.Read.val_main_v66_eq, a0, a1, a2, a3, a4, a5, a6, a7, a8, a9, a10, a11, a12, a13, a14, a15, a16,
    Cert.ReferenceIdeal.RefValue.result_eq]
  exact (Cert.KernelIdeal.KernelValue.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
